-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.sign_bit.Statement Cert.KernelIdeal.S256x4096 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S16384x4096 : Shape := ⟨2, ![16384, 4096]⟩
abbrev S16384 : Shape := ⟨1, ![16384]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S16384x4096 : S_.BroadcastsInDim S16384x4096 (![] : Fin 0 → Fin S16384x4096.rank)
  reducesTo_S16384x4096_S_d0_1 : S16384x4096.ReducesTo [0, 1] S_
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S8192x4096 .f32) (main_arg1 : FVec F S16384x4096 .f32) (main_arg2 : FVec F S16384 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S16384x4096 .f32 := Host.absf main_arg1
  let main_cst_0 : FVec F S_ .f32 := constant S_ .f32 0x7F800000#32
  let main_v5 : FVec F S16384x4096 .f32 := broadcastInDim S16384x4096 ![] bcast_S_S16384x4096 main_cst_0
  let main_v6 : IVec S16384x4096 1 := cmpf .olt main_v4 main_v5
  let main_c_1 : IVec S_ 1 := constantI S_ 1 1#1
  let main_v7 : IVec S_ 1 := (fun x v => Host.reduce IntOp.andi x v reducesTo_S16384x4096_S_d0_1 h_S_) main_v6 main_c_1
  let main_v8 : IVec S_ 1 := andi main_v3 main_v7
  let main_v9 : FVec F S16384 .f32 := Host.absf main_arg2
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  main_v13
-- ==== Kernel.lean ====
abbrev S8192x4096 : Shape := ⟨2, ![8192, 4096]⟩
abbrev S16384x4096 : Shape := ⟨2, ![16384, 4096]⟩
abbrev S16384 : Shape := ⟨1, ![16384]⟩
abbrev S16384x1 : Shape := ⟨2, ![16384, 1]⟩
abbrev S256x4096 : Shape := ⟨2, ![256, 4096]⟩
abbrev S256x1 : Shape := ⟨2, ![256, 1]⟩
abbrev S256 : Shape := ⟨1, ![256]⟩
abbrev S1x16384 : Shape := ⟨2, ![1, 16384]⟩
abbrev S8192x16384 : Shape := ⟨2, ![8192, 16384]⟩
abbrev S2048x256 : Shape := ⟨2, ![2048, 256]⟩
abbrev S1024x256 : Shape := ⟨2, ![1024, 256]⟩
abbrev S1x1024 : Shape := ⟨2, ![1, 1024]⟩
abbrev S2048x1024 : Shape := ⟨2, ![2048, 1024]⟩

abbrev nBuf : Space → Nat
  | .hbm => 9
  | .vmem => 16
  | .smem => 0
  | _ => 0

abbrev bufTy : (tb : Table) → Fin (tcTables nBuf tb) → BufTy
  | .hbm, ⟨0, _⟩ => ⟨S8192x4096, .f32⟩
  | .hbm, ⟨1, _⟩ => ⟨S16384x4096, .f32⟩
  | .hbm, ⟨2, _⟩ => ⟨S16384, .f32⟩
  | .hbm, ⟨3, _⟩ => ⟨S16384x1, .f32⟩
  | .hbm, ⟨4, _⟩ => ⟨S16384x4096, .bf16⟩
  | .hbm, ⟨5, _⟩ => ⟨S1x16384, .f32⟩
  | .hbm, ⟨6, _⟩ => ⟨S1x16384, .f32⟩
  | .hbm, ⟨7, _⟩ => ⟨S8192x4096, .bf16⟩
  | .hbm, ⟨8, _⟩ => ⟨S8192x16384, .f32⟩
  | .local _ .vmem, ⟨0, _⟩ => ⟨S256x4096, .f32⟩
  | .local _ .vmem, ⟨1, _⟩ => ⟨S256x4096, .f32⟩
  | .local _ .vmem, ⟨2, _⟩ => ⟨S256x1, .f32⟩
  | .local _ .vmem, ⟨3, _⟩ => ⟨S256x1, .f32⟩
  | .local _ .vmem, ⟨4, _⟩ => ⟨S256x4096, .bf16⟩
  | .local _ .vmem, ⟨5, _⟩ => ⟨S256x4096, .bf16⟩
  | .local _ .vmem, ⟨6, _⟩ => ⟨S2048x256, .bf16⟩
  | .local _ .vmem, ⟨7, _⟩ => ⟨S2048x256, .bf16⟩
  | .local _ .vmem, ⟨8, _⟩ => ⟨S1024x256, .bf16⟩
  | .local _ .vmem, ⟨9, _⟩ => ⟨S1024x256, .bf16⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S2048x1024, .f32⟩
  | .local _ .vmem, ⟨15, _⟩ => ⟨S2048x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15

abbrev nD : Nat := 1
abbrev τ : Topo := Topo.v7x

variable {F : FTy → Type} [BitOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![4, 16, 16], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S2048x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true, false]

abbrev stage1_4 : Fin 2 → Memref sig .tc .vmem S2048x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

class Facts₀ : Prop where
  inb_S256x4096_S256x4096_0_0 : ∀ a, (![0, 0] : Fin 2 → Nat) a + S256x4096.size a ≤ S256x4096.size a
  h_S256x4096 : 0 < S256x4096.numel
  reduces_S256x4096_S256 : S256x4096.Reduces [1] S256
  shapeCasts_S256_S256x1 : S256.ShapeCasts S256x1
  inb_S256x1_S256x1_0_0 : ∀ a, (![0, 0] : Fin 2 → Nat) a + S256x1.size a ≤ S256x1.size a
  h_S256x1 : 0 < S256x1.numel
  bitsLt_bf16_f32 : FTy.bits .bf16 < FTy.bits .f32
  packedbf16_S256x4096_S256x4096_0_0 : (Rect.unit (s := S256x4096) ![0, 0] S256x4096.size inb_S256x4096_S256x4096_0_0).PackedRows (EltTy.packing .bf16)
  transposes_S16384x1_S1x16384_1_0 : S16384x1.Transposes [1, 0] S1x16384
  shapeCasts_S16384_S1x16384 : S16384.ShapeCasts S1x16384
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  dot_S2048x256_S1024x256_S2048x1024_1_1_0_0_n_n_wf : DotDims.WF S2048x256 S1024x256 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S16384x4096.size a
  hwx0_0 : ∀ i : grid0.Coords, EltTy.bits .f32 = 32 ∨ (Rect.block (s := S16384x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S16384x1.size a
  hwx0_1 : ∀ i : grid0.Coords, EltTy.bits .f32 = 32 ∨ (Rect.block (s := S16384x1) S256x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S16384x4096.size a
  hwx0_2 : ∀ i : grid0.Coords, EltTy.bits .bf16 = 32 ∨ (Rect.block (s := S16384x4096) S256x4096.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x256.size a ≤ S8192x4096.size a
  hwx1_0 : ∀ i : grid1.Coords, EltTy.bits .bf16 = 32 ∨ (Rect.block (s := S8192x4096) S2048x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x256.size a ≤ S16384x4096.size a
  hwx1_1 : ∀ i : grid1.Coords, EltTy.bits .bf16 = 32 ∨ (Rect.block (s := S16384x4096) S1024x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x16384.size a
  hwx1_2 : ∀ i : grid1.Coords, EltTy.bits .f32 = 32 ∨ (Rect.block (s := S1x16384) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x16384.size a
  hwx1_3 : ∀ i : grid1.Coords, EltTy.bits .f32 = 32 ∨ (Rect.block (s := S1x16384) S1x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2048x1024.size a ≤ S8192x16384.size a
  hwx1_4 : ∀ i : grid1.Coords, EltTy.bits .f32 = 32 ∨ (Rect.block (s := S8192x16384) S2048x1024.size (cc1_transform_4 i) (hinb1_4 i)).WholeWords (EltTy.packing .f32)

variable [Facts₀]

def dot_S2048x256_S1024x256_S2048x1024_1_1_0_0_n_n : DotDims S2048x256 S1024x256 S2048x1024 where
  lhsContracting := [1]
  rhsContracting := [1]
  lhsNonContracting := [0]
  rhsNonContracting := [0]
  lhsBatch := []
  rhsBatch := []
  wf := dot_S2048x256_S1024x256_S2048x1024_1_1_0_0_n_n_wf

abbrev win0_0 : Pipeline.Window sig grid0 :=
  Pipeline.Window.ofSpec (Memref.whole main_arg1) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S256x1.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S256x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v3) S2048x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S1024x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v4) S2048x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S8192x4096 : Shape := ⟨2, ![8192, 4096]⟩
abbrev S16384x4096 : Shape := ⟨2, ![16384, 4096]⟩
abbrev S16384 : Shape := ⟨1, ![16384]⟩
abbrev S_ : Shape := ⟨0, ![]⟩
abbrev S16384x1 : Shape := ⟨2, ![16384, 1]⟩
abbrev S4096x16384 : Shape := ⟨2, ![4096, 16384]⟩
abbrev S8192x16384 : Shape := ⟨2, ![8192, 16384]⟩
abbrev S1x16384 : Shape := ⟨2, ![1, 16384]⟩

abbrev nBuf : Space → Nat
  | .hbm => 18
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S16384x4096, .f32⟩
  | .hbm, ⟨2, _⟩ => ⟨S16384, .f32⟩
  | .hbm, ⟨3, _⟩ => ⟨S16384x4096, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S16384x4096, .f32⟩
  | .hbm, ⟨11, _⟩ => ⟨S16384x4096, .f32⟩
  | .hbm, ⟨12, _⟩ => ⟨S16384x4096, .f32⟩
  | .hbm, ⟨13, _⟩ => ⟨S4096x16384, .f32⟩
  | .hbm, ⟨14, _⟩ => ⟨S8192x16384, .f32⟩
  | .hbm, ⟨15, _⟩ => ⟨S1x16384, .f32⟩
  | .hbm, ⟨16, _⟩ => ⟨S8192x16384, .f32⟩
  | .hbm, ⟨17, _⟩ => ⟨S8192x16384, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  reducesTo_S16384x4096_S16384_d1 : S16384x4096.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x4096_0_1 : S16384x1.BroadcastsInDim S16384x4096 (![0, 1] : Fin 2 → Fin S16384x4096.rank)
  transposes_S16384x4096_S4096x16384_1_0 : S16384x4096.Transposes [1, 0] S4096x16384
  bcast_S16384_S1x16384_1 : S16384.BroadcastsInDim S1x16384 (![1] : Fin 1 → Fin S1x16384.rank)
  bcast_S1x16384_S8192x16384_0_1 : S1x16384.BroadcastsInDim S8192x16384 (![0, 1] : Fin 2 → Fin S8192x16384.rank)
  dot_S8192x4096_S4096x16384_S8192x16384_1_0_0_1_n_n_wf : DotDims.WF S8192x4096 S4096x16384 S8192x16384 [1] [0] [0] [1] [] []

variable [Facts₀]

def dot_S8192x4096_S4096x16384_S8192x16384_1_0_0_1_n_n : DotDims S8192x4096 S4096x16384 S8192x16384 where
  lhsContracting := [1]
  rhsContracting := [0]
  lhsNonContracting := [0]
  rhsNonContracting := [1]
  lhsBatch := []
  rhsBatch := []
  wf := dot_S8192x4096_S4096x16384_S8192x16384_1_0_0_1_n_n_wf

class Facts : Prop extends Facts₀ where

variable [Facts]
-- ==== Proof.KernelRun.lean ====
/-
  The idealized kernel's whole run with its RESULT named.  The program is two kernel regions with three host lines
  between them; every weakly fair execution terminates without a fault, the three argument arrays end as launched,
  and the result array ends at what the second region's write-backs leave of it (the contents at the last segment
  boundary, read at the result's buffer).  This is the frame's own argument, run once more with the result's buffer
  kept in the postcondition beside the arguments'.
-/
import proofs.«155055_j89489938580120_2_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result array then holds the last
    boundary's contents at its buffer, and each argument array what it held at launch. -/
theorem run_main : θ_run defs (onTc (τ := τ) (main (F := F))) ⟨m, fun _ => 0, ρ⟩ (fun r => ∀ c : Dev nD,
      r.2.mem ((c.tc : Thread nD τ).loc main_v4) = W3 m ρ c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v4 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c)⟩)

end Cert.KernelIdeal.Whole

end
-- ==== Proof.Spec.lean ====
/-
  A linear layer whose weight is quantised to one bit: every weight row is replaced by its signs, scaled by the
  mean of the row's absolute values.  For x : [8192, 4096], w : [16384, 4096], b : [16384] the result at (p, q) is

      ∑ k, x[p, k] · (sign w[q, k] · s[q]) + b[q]          with   s[q] = (∑ c, |w[q, c]|) / 4096.

  The kernel takes the scale out of the sum, and splits the sum over k into 16 consecutive stretches of 256:

      (∑ kb < 16, ∑ kk < 256, x[p, 256·kb + kk] · sign w[q, 256·kb + kk]) · s[q] + b[q].

  This module states the pieces of that arithmetic, over the extended reals, as functions of whole arrays; it
  mentions no program.  The two forms agree when x and w are finite (module Algebra).
-/
import Idealize.ShloMosaic.PureOps.Ideal.Laws
import Idealize.ShloMosaic.Lib.ValueIdx

noncomputable section

namespace Cert.BitLinear

open Idealize.ShloMosaic Idealize.ShloMosaic.ValueIdx

/-- The shapes of the three arguments, of the result, and of the scale as a column and as a row. -/
abbrev SX : Shape := ⟨2, ![8192, 4096]⟩
abbrev SW : Shape := ⟨2, ![16384, 4096]⟩
abbrev SB : Shape := ⟨1, ![16384]⟩
abbrev SO : Shape := ⟨2, ![8192, 16384]⟩
abbrev SCol : Shape := ⟨2, ![16384, 1]⟩
abbrev SRow : Shape := ⟨2, ![1, 16384]⟩

/-- Row `r`'s scale: the sum of the row's absolute values divided by (the float that is) 4096. -/
def rowScale (W : SW.Idx → EReal) (r : Fin 16384) : EReal :=
  Ideal.div (∑ c : Fin 4096, FloatOps.absf (F := Ideal) (φ := .f32) (W (ix2 r c))) (Ideal.ofBits .f32 0x45800000#32)

/-- The scales as a column [16384, 1]. -/
def scaleCol (W : SW.Idx → EReal) : SCol.Idx → EReal := fun i => rowScale W (i 0)

/-- The signs of the weights, entry by entry (-1, 0 or 1). -/
def signArr (W : SW.Idx → EReal) : SW.Idx → EReal := fun i => Ideal.sign (W i)

/-- Position `kk` of stretch `kb` of the contracted axis: 256·kb + kk. -/
def kidx (kb : Fin 16) (kk : Fin 256) : Fin 4096 := ⟨kb.val * 256 + kk.val, by omega⟩

/-- What the second kernel leaves, as a function of the four arrays it reads — x : [8192, 4096], the signs
    sw : [16384, 4096], and two rows [1, 16384], the scales and the bias —: at (p, q) the sum over the 16 stretches
    of the 256 products of a stretch, times the scale at q, plus the bias at q. -/
def fused (xs : SX.Idx → EReal) (sw : SW.Idx → EReal) (sc bs : SRow.Idx → EReal) : SO.Idx → EReal := fun i =>
  (∑ kb : Fin 16, ∑ kk : Fin 256, xs (ix2 (i 0) (kidx kb kk)) * sw (ix2 (i 1) (kidx kb kk))) * sc (ix2 0 (i 1))
    + bs (ix2 0 (i 1))

/-- The kernel's result as a function of the three arguments. -/
def kernelOut (X : SX.Idx → EReal) (W : SW.Idx → EReal) (B : SB.Idx → EReal) : SO.Idx → EReal := fun i =>
  (∑ kb : Fin 16, ∑ kk : Fin 256, X (ix2 (i 0) (kidx kb kk)) * Ideal.sign (W (ix2 (i 1) (kidx kb kk)))) * rowScale W (i 1)
    + B (ix1 (i 1))

/-- The reference's result as a function of the three arguments: the scale inside the sum over the whole axis. -/
def refOut (X : SX.Idx → EReal) (W : SW.Idx → EReal) (B : SB.Idx → EReal) : SO.Idx → EReal := fun i =>
  (∑ k : Fin 4096, X (ix2 (i 0) k) * (Ideal.sign (W (ix2 (i 1) k)) * rowScale W (i 1))) + B (ix1 (i 1))

end Cert.BitLinear

end
-- ==== Proof.LibRowOps.lean ====
/-
  Sums along the feature axis, and the keep-dimension column forms, read at an entry.

  A tile with nodes down its rows and features across its columns is reduced along axis 1: the result at row p is
  the sum of that row's b entries. On the extended reals the reduction from the zero accumulator is that plain
  sum. A per-row statistic is then kept as a one-column matrix: a length-a vector cast to [a, 1] reads its entry
  p at (p, 0), and the column broadcast across b columns reads (p, 0) at every (p, c). Every extent is generic.
-/
import Idealize.ShloMosaic.PureOps.Ideal.Laws
import Idealize.ShloMosaic.Lib.ValueIdx
import Idealize.ShloMosaic.Lib.Pipeline.Value

namespace RowOps

open Idealize.ShloMosaic Idealize.ShloMosaic.ValueIdx

variable {a b : ℕ}

/-- Row p with the feature coordinate k put back on axis 1 is the entry (p, k). -/
theorem lift_row (h : Shape.Reduces ⟨2, ![a, b]⟩ [1] ⟨1, ![a]⟩) (p : Fin a) (k : Fin b) :
    h.lift (ix1 p) k = ix2 p k := by
  funext d
  apply Fin.ext
  match d with
  | ⟨0, h0⟩ =>
    show h.liftVal (ix1 p) k.val ⟨0, h0⟩ = p.val
    unfold Shape.Reduces.liftVal
    split
    · next hc => exact absurd hc Nat.zero_ne_one
    · split
      · rfl
      · next hlt => exact absurd Nat.zero_lt_one hlt
  | ⟨1, h1⟩ =>
    show h.liftVal (ix1 p) k.val ⟨1, h1⟩ = k.val
    unfold Shape.Reduces.liftVal
    split
    · rfl
    · next hc => exact absurd rfl hc

/-- A sum along axis 1 from the zero accumulator, at row p: the sum of the row's b entries. -/
theorem rowSum_apply (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (p : Fin a) :
    multiReduction .add [1] ⟨1, ![a]⟩ v 0x00000000#32 h hφ hacc (ix1 p) = ∑ k : Fin b, v (ix2 p k) := by
  refine (Ideal.multiReduction_add_single v 0x00000000#32 h hφ hacc (ix1 p)).trans ?_
  exact Finset.sum_congr rfl fun k _ => congrArg v (lift_row h p k)

variable {α : Type}

/-- A length-a vector cast to the column [a, 1] reads, at (p, u), the vector's entry p. -/
theorem shapeCast_a_a1_apply (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column [a, 1] broadcast over [a, b] reads, at (p, c), the column's entry (p, 0). -/
theorem broadcastTo_a1_ab_apply (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end RowOps
-- ==== Proof.Region0Pay.lean ====
/-
  The first kernel's arithmetic on one block of 256 weight rows, read entry by entry.

  A block holds 256 rows of 4096 weights. The kernel leaves two things: a column with, for each row, the sum of
  the absolute values of the row's 4096 entries divided by 4096; and, entry by entry, the sign of the weight
  (-1, 0 or 1). Over the extended reals a change of float format is the identity, so the sign survives the
  narrowing to sixteen bits unchanged.
-/
import proofs.«155055_j89489938580120_2_alg».proof.Proof.Gen.KernelIdeal.Skeleton
import proofs.«155055_j89489938580120_2_alg».proof.Proof.LibRowOps
import Idealize.ShloMosaic.PureOps.Ideal.Laws
import Idealize.ShloMosaic.Lib.ValueIdx

noncomputable section

namespace Cert.KernelIdeal.Region0

open Idealize.ShloMosaic Idealize.ShloMosaic.ValueIdx Cert.KernelIdeal Cert.KernelIdeal.Gen

/-- The sign payload at entry (p, q): the sign of the block's entry there. The printed term picks 1 with the
    entry's sign where the entry's absolute value is above zero and the entry itself (zero) elsewhere. -/
theorem sign_pay_apply (x0 : Vec Ideal S256x4096 .f32) (p : Fin 256) (q : Fin 4096) :
    k0_pay2 (F := Ideal) x0 (ix2 p q) = Ideal.sign (x0 (ix2 p q)) := by
  unfold k0_pay2
  exact Ideal.jnp_sign_eq_sign_f32 (x0 (ix2 p q))

/-- The scale payload at row p of the one-column block: the row's absolute values summed over its 4096 entries,
    divided by 4096. -/
theorem scale_pay_apply (x0 : Vec Ideal S256x4096 .f32) (p : Fin 256) (u : Fin 1) :
    k0_pay1 (F := Ideal) x0 (ix2 p u)
      = Ideal.div (∑ q : Fin 4096, FloatOps.absf (F := Ideal) (φ := .f32) (x0 (ix2 p q))) (Ideal.ofBits .f32 0x45800000#32) := by
  unfold k0_pay1
  show Ideal.div (shapeCast S256x1 (multiReduction (F := Ideal) .add [1] S256 (absf (F := Ideal) x0) 0x00000000#32 reduces_S256x4096_S256 (.inl rfl) rfl) shapeCasts_S256_S256x1 (ix2 p u)) (Ideal.ofBits .f32 0x45800000#32) = _
  refine congrArg (fun z => Ideal.div z (Ideal.ofBits .f32 0x45800000#32)) ?_
  refine (RowOps.shapeCast_a_a1_apply _ shapeCasts_S256_S256x1 p u).trans ?_
  exact RowOps.rowSum_apply (absf (F := Ideal) x0) reduces_S256x4096_S256 (.inl rfl) rfl p

end Cert.KernelIdeal.Region0

end
-- ==== Proof.Region0.lean ====
/-
  The first kernel's two result arrays after its 64 grid points.

  Point t works on weight rows 256·t … 256·t + 255: its input block is those rows of the weight array (all 4096
  columns), its first output block the same rows of the one-column scale array, its second output block the same
  rows of the sign array. What a point leaves in an output block is therefore the block, at the same rows, of one
  function of the whole weight array — the row scales as a column, the signs entry by entry — and since every row
  lies in the block of point row / 256, the arrays end holding those functions.
-/
import proofs.«155055_j89489938580120_2_alg».proof.Proof.Gen.KernelIdeal.Frame
import proofs.«155055_j89489938580120_2_alg».proof.Proof.Spec
import proofs.«155055_j89489938580120_2_alg».proof.Proof.Region0Pay
import Idealize.ShloMosaic.Lib.Pipeline.Value

noncomputable section

namespace Cert.KernelIdeal.Region0

open Idealize.ShloMosaic Idealize.ShloMosaic.TcCoe Idealize.SL.Sem Cert.KernelIdeal Cert.KernelIdeal.Gen Cert.BitLinear
open Idealize.ShloMosaic.ValueIdx
open Idealize.ShloMosaic.Pipeline (Dat)

variable (V : (c : Dev nD) → (b : Ref sig .tc) → Buf (Elt Ideal) ((c : Thread nD τ).loc b))

/-- The two zero offsets of a whole-block access. -/
theorem zero_off : (![0, 0] : Fin 2 → Nat) = fun _ => 0 := funext fun a => by fin_cases a <;> rfl

/-- The printed index maps, decided over the 64 points: every window's block at point t is block t along the rows
    and block 0 along the columns. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The input block at point t, at (p, q), is the weight array's entry (256·t + p, q). -/
theorem weight_block_apply (c : Dev nD) (t : Fin cfg0.N) (x : S256x4096.Idx) (k : S16384x4096.Idx)
    (hk0 : (k 0).val = t.val * 256 + (x 0).val) (hk1 : (k 1).val = (x 1).val) :
    (iblk0 (F := Ideal) V c 0 t : Vec Ideal S256x4096 .f32) x = (V c main_arg1 : S16384x4096.Idx → EReal) k := by
  obtain ⟨e0, e1, -⟩ := block_index t
  unfold iblk0
  rw [View.read_apply]
  show (V c main_arg1 : S16384x4096.Idx → EReal) _ = (V c main_arg1 : S16384x4096.Idx → EReal) _
  congr 1
  funext a
  apply Fin.ext
  match a with
  | ⟨0, _⟩ => show win0_0.index t (0 : Fin 2) * 256 + 1 * (x 0).val = (k 0).val; rw [e0, hk0]; omega
  | ⟨1, _⟩ => show win0_0.index t (1 : Fin 2) * 4096 + 1 * (x 1).val = (k 1).val; rw [e1, hk1]; omega

/-- The sign payload of a block that is rows of a weight array W, at an entry: the sign of W there. -/
theorem sign_of_block (x0 : Vec Ideal S256x4096 .f32) (W : SW.Idx → EReal) (y : S256x4096.Idx) (k : SW.Idx)
    (h : x0 y = W k) : k0_pay2 (F := Ideal) x0 y = signArr W k := by
  obtain ⟨p, q, rfl⟩ : ∃ (p : Fin 256) (q : Fin 4096), y = ix2 p q := ⟨y 0, y 1, eq_ix2 y⟩
  refine (sign_pay_apply x0 p q).trans ?_
  exact congrArg Ideal.sign h

/-- The scale payload of a block whose row p is row r of a weight array W: row r's scale. -/
theorem scale_of_block (x0 : Vec Ideal S256x4096 .f32) (W : SW.Idx → EReal) (y : S256x1.Idx) (k : SCol.Idx)
    (h : ∀ q : Fin 4096, ∀ (i : S256x4096.Idx) (i' : SW.Idx), (i 0).val = (y 0).val → (i 1).val = q.val →
      (i' 0).val = (k 0).val → (i' 1).val = q.val → x0 i = W i') :
    k0_pay1 (F := Ideal) x0 y = scaleCol W k := by
  obtain ⟨p, u, rfl⟩ : ∃ (p : Fin 256) (u : Fin 1), y = ix2 p u := ⟨y 0, y 1, eq_ix2 y⟩
  obtain ⟨r, v, rfl⟩ : ∃ (r : Fin 16384) (v : Fin 1), k = ix2 r v := ⟨k 0, k 1, eq_ix2 k⟩
  refine (scale_pay_apply x0 p u).trans ?_
  show Ideal.div _ _ = Ideal.div (∑ c : Fin 4096, FloatOps.absf (F := Ideal) (φ := .f32) (W (ix2 r c))) _
  refine congrArg (fun z => Ideal.div z (Ideal.ofBits .f32 0x45800000#32)) ?_
  exact Finset.sum_congr rfl fun q _ => congrArg (FloatOps.absf (F := Ideal) (φ := .f32)) (h q (ix2 p q) (ix2 r q) rfl rfl rfl rfl)

/-- What point t writes back to the sign array is block t of the signs of the weight array. -/
theorem sign_flushed (c : Dev nD) (t : Fin cfg0.N) :
    (dat0 (F := Ideal) V c).flushed 2 t = ((cfg0.win 2).blk t).view.read (Elt Ideal) (signArr (V c main_arg1)) := by
  show (cfg0.win 2).cut (grid0.coords t) ((dat0 (F := Ideal) V c).after 2 t) = _
  rw [after0_2]
  unfold out0_2
  rw [View.canon_unit_zero zero_off]
  simp only [View.ld_unit_zero (S := S256x4096) zero_off]
  obtain ⟨-, -, -, -, e4, e5⟩ := block_index t
  funext j
  show k0_pay2 (F := Ideal) (iblk0 (F := Ideal) V c 0 t) ((cfg0.win 2).xinj (grid0.coords t) j)
    = signArr (V c main_arg1) (((cfg0.win 2).blk t).view.emb j)
  refine sign_of_block (iblk0 (F := Ideal) V c 0 t) (V c main_arg1) ((cfg0.win 2).xinj (grid0.coords t) j)
    (((cfg0.win 2).blk t).view.emb j) ?_
  refine weight_block_apply V c t ((cfg0.win 2).xinj (grid0.coords t) j) (((cfg0.win 2).blk t).view.emb j) ?_ ?_
  · show win0_2.index t (0 : Fin 2) * 256 + 1 * (j 0).val = t.val * 256 + (j 0).val; rw [e4]; omega
  · show win0_2.index t (1 : Fin 2) * 4096 + 1 * (j 1).val = (j 1).val; rw [e5]; omega

/-- What point t writes back to the scale column is block t of the row scales of the weight array. -/
theorem scale_flushed (c : Dev nD) (t : Fin cfg0.N) :
    (dat0 (F := Ideal) V c).flushed 1 t = ((cfg0.win 1).blk t).view.read (Elt Ideal) (scaleCol (V c main_arg1)) := by
  show (cfg0.win 1).cut (grid0.coords t) ((dat0 (F := Ideal) V c).after 1 t) = _
  rw [after0_1]
  unfold out0_1
  rw [View.canon_unit_zero zero_off]
  simp only [View.ld_unit_zero (S := S256x4096) zero_off]
  obtain ⟨-, -, e2, e3, -, -⟩ := block_index t
  funext j
  show k0_pay1 (F := Ideal) (iblk0 (F := Ideal) V c 0 t) ((cfg0.win 1).xinj (grid0.coords t) j)
    = scaleCol (V c main_arg1) (((cfg0.win 1).blk t).view.emb j)
  refine scale_of_block (iblk0 (F := Ideal) V c 0 t) (V c main_arg1) ((cfg0.win 1).xinj (grid0.coords t) j)
    (((cfg0.win 1).blk t).view.emb j) fun q i i' h0 h1 h0' h1' => ?_
  refine weight_block_apply V c t i i' ?_ ?_
  · have hb : ((((cfg0.win 1).blk t).view.emb j) 0).val = win0_1.index t (0 : Fin 2) * 256 + 1 * (j 0).val := rfl
    have hy : (((cfg0.win 1).xinj (grid0.coords t) j) 0).val = (j 0).val := rfl
    rw [h0', hb, h0, hy, e2]; omega
  · rw [h1', h1]

/-- An index of the sign array is in point t's block iff each coordinate is in the block's range on its axis. -/
theorem sign_mem_blk (t : Fin cfg0.N) (i : S16384x4096.Idx) :
    i ∈ ((cfg0.win 2).blk t).view.set ↔ ∀ a : Fin 2, win0_2.index t a * S256x4096.size a ≤ (i a).val
      ∧ (i a).val < win0_2.index t a * S256x4096.size a + S256x4096.size a := by
  show i ∈ ((View.whole main_v0_1).slice (win0_2.rect t)).set ↔ _
  rw [View.set_slice_whole, Rect.mem_set_unit]
  exact Iff.rfl

/-- An index of the scale column is in point t's block iff each coordinate is in the block's range on its axis. -/
theorem scale_mem_blk (t : Fin cfg0.N) (i : S16384x1.Idx) :
    i ∈ ((cfg0.win 1).blk t).view.set ↔ ∀ a : Fin 2, win0_1.index t a * S256x1.size a ≤ (i a).val
      ∧ (i a).val < win0_1.index t a * S256x1.size a + S256x1.size a := by
  show i ∈ ((View.whole main_v0_0).slice (win0_1.rect t)).set ↔ _
  rw [View.set_slice_whole, Rect.mem_set_unit]
  exact Iff.rfl

/-- The point whose blocks hold row r is r / 256. -/
theorem point_of_row (r : Nat) (hr : r < 16384) : ∃ t : Fin cfg0.N, t.val = r / 256 :=
  ⟨⟨r / 256, by show r / 256 < grid0.N; rw [N_0]; omega⟩, rfl⟩

/-- Every entry of the sign array lies in the block of the point that holds its row. -/
theorem sign_cover (i : S16384x4096.Idx) :
    ∃ t : Fin cfg0.N, (cfg0.win 2).flush t = true ∧ i ∈ ((cfg0.win 2).blk t).view.set := by
  have hi0 : (i 0).val < 16384 := (i 0).isLt
  have hi1 : (i 1).val < 4096 := (i 1).isLt
  obtain ⟨t, ht⟩ := point_of_row (i 0).val hi0
  obtain ⟨-, -, -, -, e4, e5⟩ := block_index t
  refine ⟨t, flush0_2 t, ?_⟩
  rw [sign_mem_blk]
  intro a
  match a with
  | ⟨0, _⟩ =>
    show win0_2.index t (0 : Fin 2) * 256 ≤ (i 0).val ∧ (i 0).val < win0_2.index t (0 : Fin 2) * 256 + 256
    rw [e4, ht]; omega
  | ⟨1, _⟩ =>
    show win0_2.index t (1 : Fin 2) * 4096 ≤ (i 1).val ∧ (i 1).val < win0_2.index t (1 : Fin 2) * 4096 + 4096
    rw [e5]; omega

/-- Every entry of the scale column lies in the block of the point that holds its row. -/
theorem scale_cover (i : S16384x1.Idx) :
    ∃ t : Fin cfg0.N, (cfg0.win 1).flush t = true ∧ i ∈ ((cfg0.win 1).blk t).view.set := by
  have hi0 : (i 0).val < 16384 := (i 0).isLt
  have hi1 : (i 1).val < 1 := (i 1).isLt
  obtain ⟨t, ht⟩ := point_of_row (i 0).val hi0
  obtain ⟨-, -, e2, e3, -, -⟩ := block_index t
  refine ⟨t, flush0_1 t, ?_⟩
  rw [scale_mem_blk]
  intro a
  match a with
  | ⟨0, _⟩ =>
    show win0_1.index t (0 : Fin 2) * 256 ≤ (i 0).val ∧ (i 0).val < win0_1.index t (0 : Fin 2) * 256 + 256
    rw [e2, ht]; omega
  | ⟨1, _⟩ =>
    show win0_1.index t (1 : Fin 2) * 1 ≤ (i 1).val ∧ (i 1).val < win0_1.index t (1 : Fin 2) * 1 + 1
    rw [e3]; omega

/-- After the 64 points the scale array holds, as a column, every weight row's scale. -/
theorem scale_array (c : Dev nD) : (dat0 (F := Ideal) V c).arrAt 1 cfg0.N = scaleCol (V c main_arg1) :=
  (dat0 (F := Ideal) V c).arrAt_eq_of_cover 1 (scaleCol (V c main_arg1)) (fun t _ => scale_flushed V c t) scale_cover

/-- After the 64 points the sign array holds the sign of every weight. -/
theorem sign_array (c : Dev nD) : (dat0 (F := Ideal) V c).arrAt 2 cfg0.N = signArr (V c main_arg1) :=
  (dat0 (F := Ideal) V c).arrAt_eq_of_cover 2 (signArr (V c main_arg1)) (fun t _ => sign_flushed V c t) sign_cover

end Cert.KernelIdeal.Region0

end
-- ==== Proof.Region1Pieces.lean ====
import proofs.«155055_j89489938580120_2_alg».proof.Proof.Gen.KernelIdeal.Frame
import Idealize.ShloMosaic.Lib.Pipeline.Value
import Idealize.ShloMosaic.Lib.Tactic

noncomputable section

namespace Cert.KernelIdeal.Region1

open Idealize.ShloMosaic Idealize.ShloMosaic.TcCoe Idealize.SL.Sem Cert.KernelIdeal Cert.KernelIdeal.Gen

variable {F : FTy → Type} [FloatOps F]

/-- The zero offsets of a whole-block access, as the constant function. -/
theorem hz : (![0, 0] : Fin 2 → Nat) = fun _ => 0 := funext fun a => by fin_cases a <;> rfl

/-! What each control case leaves in the output block's buffer, as the body's pure payloads of the blocks it reads.
    Every access of the body is a whole block, so a load reads the buffer's contents, the last store decides the
    result, and a load placed after a store reads that store's payload. -/

/-- First stretch (k = 0): the buffer is zeroed, read back, and the stretch's product added. -/
theorem out_A (c : Dev nD) (i : grid1.Coords) (a3 : Memref sig .tc .vmem S2048x256 .bf16) (h3 : a3.IsWhole) (a4 : Memref sig .tc .vmem S1024x256 .bf16) (h4 : a4.IsWhole) (a5 : Memref sig .tc .vmem S1x1024 .f32) (h5 : a5.IsWhole) (a6 : Memref sig .tc .vmem S1x1024 .f32) (h6 : a6.IsWhole) (a7 : Memref sig .tc .vmem S2048x1024 .f32) (h7 : a7.IsWhole) (hc0 : cond1_0 i) (hc1 : ¬cond1_1 i)
    (x0 : Vec F S2048x256 .bf16) (x1 : Vec F S1024x256 .bf16) (x2 : Vec F S1x1024 .f32) (x3 : Vec F S1x1024 .f32) :
    out1_A_4 c i a3 h3 a4 h4 a5 h5 a6 h6 a7 h7 hc0 hc1 x0 x1 x2 x3 = k1_pay2 (k1_pay1 (F := F)) x0 x1 := by
  unfold out1_A_4
  rw [View.read_writes_eq_canon _ _ _ (cover1_A_4 c i a3 h3 a4 h4 a5 h5 a6 h6 a7 h7 hc0 hc1 x0 x1 x2 x3)]
  unfold kernelRun1_A
  dsimp only
  sl_unfold_words
  rw [View.canon_cons_unit_zero (S := S2048x1024) hz, View.readCov_unit_zero (S := S2048x1024) _ hz]
  simp only [View.readAt_eq_ld, h3.read_unread, h4.read_unread, h5.read_unread, h6.read_unread, h7.read_unread, View.ld_unit_zero (S := S2048x256) hz, View.ld_unit_zero (S := S1024x256) hz, View.ld_unit_zero (S := S1x1024) hz, View.ld_unit_zero (S := S2048x1024) hz]

/-- A middle stretch (0 < k < 15): the stretch's product is added to what the buffer held. -/
theorem out_B (c : Dev nD) (i : grid1.Coords) (a3 : Memref sig .tc .vmem S2048x256 .bf16) (h3 : a3.IsWhole) (a4 : Memref sig .tc .vmem S1024x256 .bf16) (h4 : a4.IsWhole) (a5 : Memref sig .tc .vmem S1x1024 .f32) (h5 : a5.IsWhole) (a6 : Memref sig .tc .vmem S1x1024 .f32) (h6 : a6.IsWhole) (a7 : Memref sig .tc .vmem S2048x1024 .f32) (h7 : a7.IsWhole) (hc0 : ¬cond1_0 i) (hc1 : ¬cond1_1 i)
    (x0 : Vec F S2048x256 .bf16) (x1 : Vec F S1024x256 .bf16) (x2 : Vec F S1x1024 .f32) (x3 : Vec F S1x1024 .f32) (xo4 : Vec F S2048x1024 .f32) :
    out1_B_4 c i a3 h3 a4 h4 a5 h5 a6 h6 a7 h7 hc0 hc1 x0 x1 x2 x3 xo4 = k1_pay2 xo4 x0 x1 := by
  unfold out1_B_4
  rw [View.read_writes_eq_canon _ _ _ (cover1_B_4 c i a3 h3 a4 h4 a5 h5 a6 h6 a7 h7 hc0 hc1 x0 x1 x2 x3 xo4)]
  unfold kernelRun1_B
  dsimp only
  sl_unfold_words
  rw [View.canon_unit_zero (S := S2048x1024) hz]
  simp only [View.readAt_eq_ld, h3.read_unread, h4.read_unread, h5.read_unread, h6.read_unread, h7.read_unread, View.ld_unit_zero (S := S2048x256) hz, View.ld_unit_zero (S := S1024x256) hz, View.ld_unit_zero (S := S1x1024) hz, View.ld_unit_zero (S := S2048x1024) hz]

/-- Last stretch (k = 15): the stretch's product is added, then the sum is scaled by the scale row and the bias
    row is added. -/
theorem out_C (c : Dev nD) (i : grid1.Coords) (a3 : Memref sig .tc .vmem S2048x256 .bf16) (h3 : a3.IsWhole) (a4 : Memref sig .tc .vmem S1024x256 .bf16) (h4 : a4.IsWhole) (a5 : Memref sig .tc .vmem S1x1024 .f32) (h5 : a5.IsWhole) (a6 : Memref sig .tc .vmem S1x1024 .f32) (h6 : a6.IsWhole) (a7 : Memref sig .tc .vmem S2048x1024 .f32) (h7 : a7.IsWhole) (hc0 : ¬cond1_0 i) (hc1 : cond1_1 i)
    (x0 : Vec F S2048x256 .bf16) (x1 : Vec F S1024x256 .bf16) (x2 : Vec F S1x1024 .f32) (x3 : Vec F S1x1024 .f32) (xo4 : Vec F S2048x1024 .f32) :
    out1_C_4 c i a3 h3 a4 h4 a5 h5 a6 h6 a7 h7 hc0 hc1 x0 x1 x2 x3 xo4 = k1_pay3 (k1_pay2 xo4 x0 x1) x2 x3 := by
  unfold out1_C_4
  rw [View.read_writes_eq_canon _ _ _ (cover1_C_4 c i a3 h3 a4 h4 a5 h5 a6 h6 a7 h7 hc0 hc1 x0 x1 x2 x3 xo4)]
  unfold kernelRun1_C
  dsimp only
  sl_unfold_words
  rw [View.canon_cons_unit_zero (S := S2048x1024) hz, View.readCov_unit_zero (S := S2048x1024) _ hz]
  simp only [View.readAt_eq_ld, h3.read_unread, h4.read_unread, h5.read_unread, h6.read_unread, h7.read_unread, View.ld_unit_zero (S := S2048x256) hz, View.ld_unit_zero (S := S1024x256) hz, View.ld_unit_zero (S := S1x1024) hz, View.ld_unit_zero (S := S2048x1024) hz]

end Cert.KernelIdeal.Region1
end
-- ==== Proof.Region1Pay.lean ====
import proofs.«155055_j89489938580120_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region1

open Idealize.ShloMosaic Idealize.ShloMosaic.ValueIdx Cert.KernelIdeal Cert.KernelIdeal.Gen

/-! The three pure payloads of the matmul body read at one entry (p, q) of the [2048, 1024] output block, over the
    extended reals. -/

/-- The reset value is zero everywhere. -/
theorem pay1_apply (p : Fin 2048) (q : Fin 1024) : k1_pay1 (F := Ideal) (ix2 p q) = 0 := by
  unfold k1_pay1
  show Ideal.ofBits .f32 0x00000000#32 = 0
  exact Ideal.ofBits_zero_f32

/-- The dimension numbers of the body's matmul: [2048, 256] times [1024, 256], contracting axis 1 with axis 1. -/
abbrev DD : DotDims S2048x256 S1024x256 S2048x1024 := dot_S2048x256_S1024x256_S2048x1024_1_1_0_0_n_n

theorem lhs_0 (i : S2048x1024.Idx) (k : DD.contr.Idx) : (DD.lhsIdx i k 0).val = (i 0).val := by
  unfold DotDims.lhsIdx
  rw [dif_neg (show ¬(0 : Fin S2048x256.rank) ∈ DD.lhsBatch by decide), dif_pos (show (0 : Fin S2048x256.rank) ∈ DD.lhsNonContracting by decide)]
  rfl
theorem lhs_1 (i : S2048x1024.Idx) (k : DD.contr.Idx) : (DD.lhsIdx i k 1).val = (k ⟨0, by decide⟩).val :=
  DD.lhsIdx_val_of_single rfl i k
theorem rhs_0 (i : S2048x1024.Idx) (k : DD.contr.Idx) : (DD.rhsIdx i k 0).val = (i 1).val := by
  unfold DotDims.rhsIdx
  rw [dif_neg (show ¬(0 : Fin S1024x256.rank) ∈ DD.rhsBatch by decide), dif_pos (show (0 : Fin S1024x256.rank) ∈ DD.rhsNonContracting by decide)]
  rfl
theorem rhs_1 (i : S2048x1024.Idx) (k : DD.contr.Idx) : (DD.rhsIdx i k 1).val = (k ⟨0, by decide⟩).val :=
  DD.rhsIdx_val_of_single rfl i k

/-- The matmul into a zero accumulator, at (p, q): row p of the left block against row q of the right block. -/
theorem matmul_apply (x : FVec Ideal S2048x256 .bf16) (w : FVec Ideal S1024x256 .bf16) (p : Fin 2048) (q : Fin 1024) :
    matmul DD none x w (constant S2048x1024 .f32 0x00000000#32) (ix2 p q) = ∑ kk : Fin 256, x (ix2 p kk) * w (ix2 q kk) := by
  refine (Ideal.matmul_constant_zero_apply DD none x w (ix2 p q)).trans ?_
  refine (Equiv.sum_comp (contrEquiv1 DD 256 rfl rfl).symm _).symm.trans ?_
  refine Finset.sum_congr rfl fun k _ => ?_
  have hk := contrEquiv1_symm_val DD 256 rfl rfl k
  have el : DD.lhsIdx (ix2 p q) ((contrEquiv1 DD 256 rfl rfl).symm k) = ix2 p k := funext fun a => Fin.ext (by
    match a with
    | ⟨0, _⟩ => exact lhs_0 _ _
    | ⟨1, _⟩ => exact (lhs_1 _ _).trans hk)
  have er : DD.rhsIdx (ix2 p q) ((contrEquiv1 DD 256 rfl rfl).symm k) = ix2 q k := funext fun a => Fin.ext (by
    match a with
    | ⟨0, _⟩ => exact rhs_0 _ _
    | ⟨1, _⟩ => exact (rhs_1 _ _).trans hk)
  show x (DD.lhsIdx (ix2 p q) ((contrEquiv1 DD 256 rfl rfl).symm k)) * w (DD.rhsIdx (ix2 p q) ((contrEquiv1 DD 256 rfl rfl).symm k)) = _
  rw [el, er]

/-- One stretch's step: the accumulator plus the 256 products of the stretch. -/
theorem pay2_apply (acc : FVec Ideal S2048x1024 .f32) (x : FVec Ideal S2048x256 .bf16) (w : FVec Ideal S1024x256 .bf16)
    (p : Fin 2048) (q : Fin 1024) :
    k1_pay2 acc x w (ix2 p q) = acc (ix2 p q) + ∑ kk : Fin 256, x (ix2 p kk) * w (ix2 q kk) := by
  have e : k1_pay2 acc x w = addf acc (matmul DD none x w (constant S2048x1024 .f32 0x00000000#32)) := by
    unfold k1_pay2
    simp only [shapeCast_self]
  rw [e]
  exact congrArg (acc (ix2 p q) + ·) (matmul_apply x w p q)

/-- The last step: times the scale row's entry q, plus the bias row's entry q. -/
theorem pay3_apply (acc : FVec Ideal S2048x1024 .f32) (s b : FVec Ideal S1x1024 .f32) (p : Fin 2048) (q : Fin 1024) :
    k1_pay3 acc s b (ix2 p q) = acc (ix2 p q) * s (ix2 (0 : Fin 1) q) + b (ix2 (0 : Fin 1) q) := by
  have e : k1_pay3 acc s b = addf (mulf acc (broadcastTo S2048x1024 s broadcasts_S1x1024_S2048x1024))
      (broadcastTo S2048x1024 b broadcasts_S1x1024_S2048x1024) := by
    unfold k1_pay3
    simp only [shapeCast_self]
  rw [e]
  show acc (ix2 p q) * broadcastTo S2048x1024 s broadcasts_S1x1024_S2048x1024 (ix2 p q)
    + broadcastTo S2048x1024 b broadcasts_S1x1024_S2048x1024 (ix2 p q) = _
  rw [broadcastTo_1b_ab_apply s broadcasts_S1x1024_S2048x1024 p q, broadcastTo_1b_ab_apply b broadcasts_S1x1024_S2048x1024 p q]

end Cert.KernelIdeal.Region1
end
-- ==== Proof.Region1Reads.lean ====
import proofs.«155055_j89489938580120_2_alg».proof.Proof.Gen.KernelIdeal.Frame
import Idealize.ShloMosaic.Lib.Pipeline.Value
import Idealize.ShloMosaic.Lib.ValueIdx

noncomputable section

namespace Cert.KernelIdeal.Region1

open Idealize.ShloMosaic Idealize.ShloMosaic.TcCoe Idealize.ShloMosaic.ValueIdx Idealize.SL.Sem Cert.KernelIdeal Cert.KernelIdeal.Gen

variable {F : FTy → Type} [FloatOps F]
variable (V : (c : Dev nD) → (b : Ref sig .tc) → Buf (Elt F) ((c : Thread nD τ).loc b))

/-! Point t of the 4 x 16 x 16 grid is (i, j, k) = (t / 256, t / 16 % 16, t % 16). The x window's block index is
    (i, k), the sign window's (j, k), the two row windows' (0, j), the output window's (i, j). An entry of a block
    sits in its array at block index times block size plus the entry's coordinate inside the block. -/

/-- The five block-index maps in closed form, decided over the grid's 1024 points. -/
theorem index_facts : ∀ t : Fin cfg1.N,
    win1_0.index t (0 : Fin 2) = t.val / 256 ∧ win1_0.index t (1 : Fin 2) = t.val % 16
    ∧ win1_1.index t (0 : Fin 2) = t.val / 16 % 16 ∧ win1_1.index t (1 : Fin 2) = t.val % 16
    ∧ win1_2.index t (0 : Fin 2) = 0 ∧ win1_2.index t (1 : Fin 2) = t.val / 16 % 16
    ∧ win1_3.index t (0 : Fin 2) = 0 ∧ win1_3.index t (1 : Fin 2) = t.val / 16 % 16
    ∧ win1_4.index t (0 : Fin 2) = t.val / 256 ∧ win1_4.index t (1 : Fin 2) = t.val / 16 % 16 :=
  (by decide +kernel : ∀ t : Fin grid1.N, _)

/-- The x block at point t, entry (p, kk), is x at row 2048 i + p, column 256 k + kk. -/
theorem x_read (c : Dev nD) (t : Fin cfg1.N) (p : Fin 2048) (kk : Fin 256) (r : Fin 8192) (kc : Fin 4096)
    (hr : r.val = 2048 * (t.val / 256) + p.val) (hk : kc.val = 256 * (t.val % 16) + kk.val) :
    (iblk1 V c 0 t : Vec F S2048x256 .bf16) (ix2 p kk) = (V c main_v3 : S8192x4096.Idx → Elt F .bf16) (ix2 r kc) := by
  obtain ⟨e0, e1, -⟩ := index_facts t
  unfold iblk1
  rw [View.read_apply]
  show V c main_v3 (((cfg1.win 0).blk t).view.emb (ix2 p kk)) = V c main_v3 (ix2 r kc)
  refine congrArg (V c main_v3) (funext fun a => Fin.ext ?_)
  match a with
  | ⟨0, _⟩ => show win1_0.index t (0 : Fin 2) * 2048 + 1 * p.val = r.val; rw [e0]; omega
  | ⟨1, _⟩ => show win1_0.index t (1 : Fin 2) * 256 + 1 * kk.val = kc.val; rw [e1]; omega

/-- The sign block at point t, entry (q, kk), is the sign array at row 1024 j + q, column 256 k + kk. -/
theorem w_read (c : Dev nD) (t : Fin cfg1.N) (q : Fin 1024) (kk : Fin 256) (s : Fin 16384) (kc : Fin 4096)
    (hs : s.val = 1024 * (t.val / 16 % 16) + q.val) (hk : kc.val = 256 * (t.val % 16) + kk.val) :
    (iblk1 V c 1 t : Vec F S1024x256 .bf16) (ix2 q kk) = (V c main_v0_1 : S16384x4096.Idx → Elt F .bf16) (ix2 s kc) := by
  obtain ⟨-, -, e0, e1, -⟩ := index_facts t
  unfold iblk1
  rw [View.read_apply]
  show V c main_v0_1 (((cfg1.win 1).blk t).view.emb (ix2 q kk)) = V c main_v0_1 (ix2 s kc)
  refine congrArg (V c main_v0_1) (funext fun a => Fin.ext ?_)
  match a with
  | ⟨0, _⟩ => show win1_1.index t (0 : Fin 2) * 1024 + 1 * q.val = s.val; rw [e0]; omega
  | ⟨1, _⟩ => show win1_1.index t (1 : Fin 2) * 256 + 1 * kk.val = kc.val; rw [e1]; omega

/-- The scale-row block at point t, entry (0, q), is the scale row at column 1024 j + q. -/
theorem s_read (c : Dev nD) (t : Fin cfg1.N) (q : Fin 1024) (s : Fin 16384)
    (hs : s.val = 1024 * (t.val / 16 % 16) + q.val) :
    (iblk1 V c 2 t : Vec F S1x1024 .f32) (ix2 (0 : Fin 1) q) = (V c main_v1 : S1x16384.Idx → Elt F .f32) (ix2 (0 : Fin 1) s) := by
  obtain ⟨-, -, -, -, e0, e1, -⟩ := index_facts t
  unfold iblk1
  rw [View.read_apply]
  show V c main_v1 (((cfg1.win 2).blk t).view.emb (ix2 (0 : Fin 1) q)) = V c main_v1 (ix2 (0 : Fin 1) s)
  refine congrArg (V c main_v1) (funext fun a => Fin.ext ?_)
  match a with
  | ⟨0, _⟩ => show win1_2.index t (0 : Fin 2) * 1 + 1 * 0 = 0; rw [e0]
  | ⟨1, _⟩ => show win1_2.index t (1 : Fin 2) * 1024 + 1 * q.val = s.val; rw [e1]; omega

/-- The bias-row block at point t, entry (0, q), is the bias row at column 1024 j + q. -/
theorem b_read (c : Dev nD) (t : Fin cfg1.N) (q : Fin 1024) (s : Fin 16384)
    (hs : s.val = 1024 * (t.val / 16 % 16) + q.val) :
    (iblk1 V c 3 t : Vec F S1x1024 .f32) (ix2 (0 : Fin 1) q) = (V c main_v2 : S1x16384.Idx → Elt F .f32) (ix2 (0 : Fin 1) s) := by
  obtain ⟨-, -, -, -, -, -, e0, e1, -⟩ := index_facts t
  unfold iblk1
  rw [View.read_apply]
  show V c main_v2 (((cfg1.win 3).blk t).view.emb (ix2 (0 : Fin 1) q)) = V c main_v2 (ix2 (0 : Fin 1) s)
  refine congrArg (V c main_v2) (funext fun a => Fin.ext ?_)
  match a with
  | ⟨0, _⟩ => show win1_3.index t (0 : Fin 2) * 1 + 1 * 0 = 0; rw [e0]
  | ⟨1, _⟩ => show win1_3.index t (1 : Fin 2) * 1024 + 1 * q.val = s.val; rw [e1]; omega

/-- Entry (p, q) of the output block at point t sits in the output array at (2048 i + p, 1024 j + q). -/
theorem o_emb (t : Fin cfg1.N) (p : Fin 2048) (q : Fin 1024) (r : Fin 8192) (s : Fin 16384)
    (hr : r.val = 2048 * (t.val / 256) + p.val) (hs : s.val = 1024 * (t.val / 16 % 16) + q.val) :
    (((cfg1.win 4).blk t).view.emb (ix2 p q) : S8192x16384.Idx) = ix2 r s := by
  obtain ⟨-, -, -, -, -, -, -, -, e0, e1⟩ := index_facts t
  refine funext fun a => Fin.ext ?_
  match a with
  | ⟨0, _⟩ => show win1_4.index t (0 : Fin 2) * 2048 + 1 * p.val = r.val; rw [e0]; omega
  | ⟨1, _⟩ => show win1_4.index t (1 : Fin 2) * 1024 + 1 * q.val = s.val; rw [e1]; omega

end Cert.KernelIdeal.Region1
end
-- ==== Proof.Region1Inv.lean ====
import proofs.«155055_j89489938580120_2_alg».proof.Proof.Region1Pieces
import proofs.«155055_j89489938580120_2_alg».proof.Proof.Region1Pay
import proofs.«155055_j89489938580120_2_alg».proof.Proof.Region1Reads
import proofs.«155055_j89489938580120_2_alg».proof.Proof.Spec

noncomputable section

namespace Cert.KernelIdeal.Region1

open Idealize.ShloMosaic Idealize.ShloMosaic.TcCoe Idealize.ShloMosaic.ValueIdx Idealize.SL.Sem Cert.KernelIdeal Cert.KernelIdeal.Gen Cert.BitLinear

/-! ## The running sum of the stretches

The contracted axis of length 4096 is cut into 16 stretches of 256. At output entry (r, s) a stretch contributes the
256 products of x's row r and the sign array's row s along the stretch; the accumulator after the first n stretches
is the sum of their contributions, added in order from zero. Addition of extended reals is commutative and associative,
so this ordered sum is the sum over the stretches. -/

/-- Stretch kb's contribution at (r, s). -/
def stretch (xs : SX.Idx → EReal) (sw : SW.Idx → EReal) (r : Fin 8192) (s : Fin 16384) (kb : Fin 16) : EReal :=
  ∑ kk : Fin 256, xs (ix2 r (kidx kb kk)) * sw (ix2 s (kidx kb kk))

/-- The first n stretches' contributions, added in order from zero. -/
def partialSum (xs : SX.Idx → EReal) (sw : SW.Idx → EReal) (r : Fin 8192) (s : Fin 16384) : ℕ → EReal
  | 0 => 0
  | n + 1 => partialSum xs sw r s n + (if h : n < 16 then stretch xs sw r s ⟨n, h⟩ else 0)

theorem partialSum_step (xs : SX.Idx → EReal) (sw : SW.Idx → EReal) (r : Fin 8192) (s : Fin 16384)
    (k : ℕ) (hk : k < 16) (m : ℕ) (hm : m = k + 1) :
    partialSum xs sw r s m = partialSum xs sw r s k + stretch xs sw r s ⟨k, hk⟩ := by
  subst hm
  show partialSum xs sw r s k + (if h : k < 16 then stretch xs sw r s ⟨k, h⟩ else 0) = _
  rw [dif_pos hk]

theorem partialSum_eq_sum (xs : SX.Idx → EReal) (sw : SW.Idx → EReal) (r : Fin 8192) (s : Fin 16384) :
    ∀ (n : ℕ) (hn : n ≤ 16), partialSum xs sw r s n = ∑ kb : Fin n, stretch xs sw r s ⟨kb.val, lt_of_lt_of_le kb.isLt hn⟩
  | 0, _ => by simp [partialSum]
  | n + 1, hn => by
    rw [partialSum_step xs sw r s n (by omega) (n + 1) rfl, partialSum_eq_sum xs sw r s n (by omega), Fin.sum_univ_castSucc]
    rfl

/-- All sixteen stretches: the sum over the stretches. -/
theorem partialSum_full (xs : SX.Idx → EReal) (sw : SW.Idx → EReal) (r : Fin 8192) (s : Fin 16384) :
    partialSum xs sw r s 16 = ∑ kb : Fin 16, stretch xs sw r s kb :=
  (partialSum_eq_sum xs sw r s 16 le_rfl).trans (Finset.sum_congr rfl fun kb _ => rfl)

variable (V : (c : Dev nD) → (b : Ref sig .tc) → Buf (Elt Ideal) ((c : Thread nD τ).loc b))

/-! ## One point of the grid -/

/-- What the output block's buffer holds after a point with k = 0, as a payload of the point's blocks. -/
theorem step_A (c : Dev nD) (t : Fin cfg1.N) (h0 : t.val % 16 = 0) (h1 : ¬t.val % 16 = 15) :
    outsAt1 V c t.val t.isLt = k1_pay2 (k1_pay1 (F := Ideal)) (iblk1 V c 0 t) (iblk1 V c 1 t) :=
  (outsAt1_A V c t h0 h1).trans
    (out_A c (grid1.coords t) (ms1_0 t) (hs1_0 t) (ms1_1 t) (hs1_1 t) (ms1_2 t) (hs1_2 t) (ms1_3 t) (hs1_3 t) (ms1_4 t) (hs1_4 t) ((hcond1_0 t).mpr h0) (fun h => h1 ((hcond1_1 t).mp h)) (iblk1 V c 0 t) (iblk1 V c 1 t) (iblk1 V c 2 t) (iblk1 V c 3 t))

/-- After a point with 0 < k < 15, over what the point before left. -/
theorem step_B (c : Dev nD) (t : Fin cfg1.N) (h0 : ¬t.val % 16 = 0) (h1 : ¬t.val % 16 = 15) :
    outsAt1 V c t.val t.isLt = k1_pay2 (outsAt1 V c (t.val - 1) (Nat.lt_of_le_of_lt (Nat.sub_le _ _) t.isLt)) (iblk1 V c 0 t) (iblk1 V c 1 t) :=
  (outsAt1_B V c t h0 h1).trans
    (out_B c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)))

/-- After a point with k = 15, over what the point before left. -/
theorem step_C (c : Dev nD) (t : Fin cfg1.N) (h0 : ¬t.val % 16 = 0) (h1 : t.val % 16 = 15) :
    outsAt1 V c t.val t.isLt
      = k1_pay3 (k1_pay2 (outsAt1 V c (t.val - 1) (Nat.lt_of_le_of_lt (Nat.sub_le _ _) t.isLt)) (iblk1 V c 0 t) (iblk1 V c 1 t)) (iblk1 V c 2 t) (iblk1 V c 3 t) :=
  (outsAt1_C V c t h0 h1).trans
    (out_C c (grid1.coords t) (ms1_0 t) (hs1_0 t) (ms1_1 t) (hs1_1 t) (ms1_2 t) (hs1_2 t) (ms1_3 t) (hs1_3 t) (ms1_4 t) (hs1_4 t) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)))

/-- If a left block's row p reads x's row r along stretch k, and a right block's row q reads the sign array's row s
    along stretch k, the 256 products of the two rows are stretch k's contribution at (r, s). -/
theorem blocks_stretch (xs : SX.Idx → EReal) (sw : SW.Idx → EReal) (x : FVec Ideal S2048x256 .bf16) (w : FVec Ideal S1024x256 .bf16)
    (k : Fin 16) (p : Fin 2048) (q : Fin 1024) (r : Fin 8192) (s : Fin 16384)
    (hx : ∀ kk : Fin 256, x (ix2 p kk) = xs (ix2 r (kidx k kk))) (hw : ∀ kk : Fin 256, w (ix2 q kk) = sw (ix2 s (kidx k kk))) :
    (∑ kk : Fin 256, x (ix2 p kk) * w (ix2 q kk)) = stretch xs sw r s k := by
  unfold stretch
  exact Finset.sum_congr rfl fun kk _ => by rw [hx kk, hw kk]

/-- What the buffer holds at entry (p, q) after point n, whose place in the output array is (r, s): before the last
    stretch the running sum of the stretches done, after it the whole sum times the scale plus the bias. -/
def target (xs : SX.Idx → EReal) (sw : SW.Idx → EReal) (sc bs : SRow.Idx → EReal) (n : ℕ) (r : Fin 8192) (s : Fin 16384) : EReal :=
  if n % 16 = 15 then partialSum xs sw r s 16 * sc (ix2 (0 : Fin 1) s) + bs (ix2 (0 : Fin 1) s) else partialSum xs sw r s (n % 16 + 1)

theorem inv_A (c : Dev nD) (t : Fin cfg1.N) (h0 : t.val % 16 = 0) (p : Fin 2048) (q : Fin 1024) (r : Fin 8192) (s : Fin 16384)
    (hr : r.val = 2048 * (t.val / 256) + p.val) (hs : s.val = 1024 * (t.val / 16 % 16) + q.val) :
    outsAt1 V c t.val t.isLt (ix2 p q) = target (V c main_v3) (V c main_v0_1) (V c main_v1) (V c main_v2) t.val r s := by
  have h1 : ¬t.val % 16 = 15 := by omega
  have hst := blocks_stretch (V c main_v3) (V c main_v0_1) (iblk1 V c 0 t) (iblk1 V c 1 t) ⟨t.val % 16, Nat.mod_lt _ (by decide)⟩ p q r s
    (fun kk => x_read V c t p kk r (kidx ⟨t.val % 16, Nat.mod_lt _ (by decide)⟩ kk) hr (by show t.val % 16 * 256 + kk.val = _; omega))
    (fun kk => w_read V c t q kk s (kidx ⟨t.val % 16, Nat.mod_lt _ (by decide)⟩ kk) hs (by show t.val % 16 * 256 + kk.val = _; omega))
  refine (congrFun (step_A V c t h0 h1) (ix2 p q)).trans ?_
  refine (pay2_apply (k1_pay1 (F := Ideal)) (iblk1 V c 0 t) (iblk1 V c 1 t) p q).trans ?_
  rw [pay1_apply p q, hst]
  unfold target
  rw [if_neg h1, partialSum_step (V c main_v3) (V c main_v0_1) r s (t.val % 16) (Nat.mod_lt _ (by decide)) (t.val % 16 + 1) rfl]
  refine congrArg (· + _) ?_
  rw [h0]
  rfl

theorem inv_B (c : Dev nD) (t : Fin cfg1.N) (h0 : ¬t.val % 16 = 0) (h1 : ¬t.val % 16 = 15) (p : Fin 2048) (q : Fin 1024) (r : Fin 8192) (s : Fin 16384)
    (hr : r.val = 2048 * (t.val / 256) + p.val) (hs : s.val = 1024 * (t.val / 16 % 16) + q.val)
    (hprev : (outsAt1 V c (t.val - 1) (Nat.lt_of_le_of_lt (Nat.sub_le _ _) t.isLt)) (ix2 p q) = partialSum (V c main_v3) (V c main_v0_1) r s (t.val % 16)) :
    outsAt1 V c t.val t.isLt (ix2 p q) = target (V c main_v3) (V c main_v0_1) (V c main_v1) (V c main_v2) t.val r s := by
  have hst := blocks_stretch (V c main_v3) (V c main_v0_1) (iblk1 V c 0 t) (iblk1 V c 1 t) ⟨t.val % 16, Nat.mod_lt _ (by decide)⟩ p q r s
    (fun kk => x_read V c t p kk r (kidx ⟨t.val % 16, Nat.mod_lt _ (by decide)⟩ kk) hr (by show t.val % 16 * 256 + kk.val = _; omega))
    (fun kk => w_read V c t q kk s (kidx ⟨t.val % 16, Nat.mod_lt _ (by decide)⟩ kk) hs (by show t.val % 16 * 256 + kk.val = _; omega))
  refine (congrFun (step_B V c t h0 h1) (ix2 p q)).trans ?_
  refine (pay2_apply (outsAt1 V c (t.val - 1) (Nat.lt_of_le_of_lt (Nat.sub_le _ _) t.isLt)) (iblk1 V c 0 t) (iblk1 V c 1 t) p q).trans ?_
  rw [hprev, hst]
  unfold target
  rw [if_neg h1, partialSum_step (V c main_v3) (V c main_v0_1) r s (t.val % 16) (Nat.mod_lt _ (by decide)) (t.val % 16 + 1) rfl]

theorem inv_C (c : Dev nD) (t : Fin cfg1.N) (h0 : ¬t.val % 16 = 0) (h1 : t.val % 16 = 15) (p : Fin 2048) (q : Fin 1024) (r : Fin 8192) (s : Fin 16384)
    (hr : r.val = 2048 * (t.val / 256) + p.val) (hs : s.val = 1024 * (t.val / 16 % 16) + q.val)
    (hprev : (outsAt1 V c (t.val - 1) (Nat.lt_of_le_of_lt (Nat.sub_le _ _) t.isLt)) (ix2 p q) = partialSum (V c main_v3) (V c main_v0_1) r s (t.val % 16)) :
    outsAt1 V c t.val t.isLt (ix2 p q) = target (V c main_v3) (V c main_v0_1) (V c main_v1) (V c main_v2) t.val r s := by
  have hst := blocks_stretch (V c main_v3) (V c main_v0_1) (iblk1 V c 0 t) (iblk1 V c 1 t) ⟨t.val % 16, Nat.mod_lt _ (by decide)⟩ p q r s
    (fun kk => x_read V c t p kk r (kidx ⟨t.val % 16, Nat.mod_lt _ (by decide)⟩ kk) hr (by show t.val % 16 * 256 + kk.val = _; omega))
    (fun kk => w_read V c t q kk s (kidx ⟨t.val % 16, Nat.mod_lt _ (by decide)⟩ kk) hs (by show t.val % 16 * 256 + kk.val = _; omega))
  refine (congrFun (step_C V c t h0 h1) (ix2 p q)).trans ?_
  refine (pay3_apply (k1_pay2 (outsAt1 V c (t.val - 1) (Nat.lt_of_le_of_lt (Nat.sub_le _ _) t.isLt)) (iblk1 V c 0 t) (iblk1 V c 1 t)) (iblk1 V c 2 t) (iblk1 V c 3 t) p q).trans ?_
  rw [pay2_apply (outsAt1 V c (t.val - 1) (Nat.lt_of_le_of_lt (Nat.sub_le _ _) t.isLt)) (iblk1 V c 0 t) (iblk1 V c 1 t) p q, hprev, hst,
    s_read V c t q s hs, b_read V c t q s hs]
  unfold target
  rw [if_pos h1, partialSum_step (V c main_v3) (V c main_v0_1) r s (t.val % 16) (Nat.mod_lt _ (by decide)) 16 (by omega)]

/-- THE INVARIANT, by induction over the points: after point n the output block's buffer holds, at every entry, the
    running sum of the stretches of n's (i, j) group done so far — and after the group's last point the finished
    value. The points of one group share i and j, so the entry's place (r, s) does not move within a group. -/
theorem inv (c : Dev nD) (n : ℕ) : ∀ (hn : n < cfg1.N) (p : Fin 2048) (q : Fin 1024) (r : Fin 8192) (s : Fin 16384),
    r.val = 2048 * (n / 256) + p.val → s.val = 1024 * (n / 16 % 16) + q.val →
    outsAt1 V c n hn (ix2 p q) = target (V c main_v3) (V c main_v0_1) (V c main_v1) (V c main_v2) n r s := by
  induction n with
  | zero =>
    intro hn p q r s hr hs
    exact inv_A V c ⟨0, hn⟩ (Nat.zero_mod 16) p q r s hr hs
  | succ n ih =>
    intro hn p q r s hr hs
    have hN : n + 1 < 1024 := lt_of_lt_of_eq hn (show cfg1.N = 1024 from N_1)
    by_cases h0 : (n + 1) % 16 = 0
    · exact inv_A V c ⟨n + 1, hn⟩ h0 p q r s hr hs
    · have ih' := ih (Nat.lt_of_succ_lt hn) p q r s (by omega) (by omega)
      have hne : ¬n % 16 = 15 := by omega
      have hk : n % 16 + 1 = (n + 1) % 16 := by omega
      unfold target at ih'
      rw [if_neg hne, hk] at ih'
      by_cases h1 : (n + 1) % 16 = 15
      · exact inv_C V c ⟨n + 1, hn⟩ h0 h1 p q r s hr hs ih'
      · exact inv_B V c ⟨n + 1, hn⟩ h0 h1 p q r s hr hs ih'

end Cert.KernelIdeal.Region1
end
-- ==== Proof.Region1Blocks.lean ====
/-
  The output of the second kernel is cut into blocks of 2048 rows by 1024 columns; the point (i, j, k) of the grid
  4 × 16 × 16 (k fastest) holds block (i, j), and writes it back when k = 15.  This module states where a block sits in
  the array [8192, 16384] — rows 2048·i .. 2048·i + 2047, columns 1024·j .. 1024·j + 1023 — and that the blocks written
  back cover the whole array: the entry (r, s) is in the block of the point 256·(r / 2048) + 16·(s / 1024) + 15.
-/
import proofs.«155055_j89489938580120_2_alg».proof.Proof.Gen.KernelIdeal.Frame

noncomputable section

namespace Cert.KernelIdeal.Region1

open Idealize.ShloMosaic Idealize.ShloMosaic.TcCoe Idealize.SL.Sem Cert.KernelIdeal Cert.KernelIdeal.Gen

/-- The output's block indices at point t, in closed form: the row block is t / 256, the column block (t / 16) % 16. -/
theorem out_index : ∀ t : Fin cfg1.N, win1_4.index t (0 : Fin 2) = t.val / 256 ∧ win1_4.index t (1 : Fin 2) = t.val / 16 % 16 :=
  (by decide +kernel : ∀ t : Fin grid1.N, _)

/-- An index of the output array is in point t's block iff each coordinate is in the block's range on its axis. -/
theorem mem_blk_out (t : Fin cfg1.N) (i : S8192x16384.Idx) :
    i ∈ ((cfg1.win 4).blk t).view.set ↔ ∀ a : Fin 2, win1_4.index t a * S2048x1024.size a ≤ (i a).val ∧ (i a).val < win1_4.index t a * S2048x1024.size a + S2048x1024.size a := by
  show i ∈ ((View.whole main_v4).slice (win1_4.rect t)).set ↔ _
  rw [View.set_slice_whole, Rect.mem_set_unit]
  exact Iff.rfl

/-- Every index of the output array is in the block of a point that writes its block back. -/
theorem cover_out : ∀ i : S8192x16384.Idx, ∃ t : Fin cfg1.N, (cfg1.win 4).flush t = true ∧ i ∈ ((cfg1.win 4).blk t).view.set := by
  intro i
  have hi0 : (i 0).val < 8192 := (i 0).isLt
  have hi1 : (i 1).val < 16384 := (i 1).isLt
  have hN : cfg1.N = 1024 := N_1
  obtain ⟨t, ht⟩ : ∃ t : Fin cfg1.N, t.val = 256 * ((i 0).val / 2048) + 16 * ((i 1).val / 1024) + 15 :=
    ⟨⟨256 * ((i 0).val / 2048) + 16 * ((i 1).val / 1024) + 15, by omega⟩, rfl⟩
  obtain ⟨e0, e1⟩ := out_index t
  refine ⟨t, (flush1_4 t).mpr (by omega), ?_⟩
  rw [mem_blk_out]
  intro a
  match a with
  | ⟨0, _⟩ => show win1_4.index t (0 : Fin 2) * 2048 ≤ (i 0).val ∧ (i 0).val < win1_4.index t (0 : Fin 2) * 2048 + 2048; omega
  | ⟨1, _⟩ => show win1_4.index t (1 : Fin 2) * 1024 ≤ (i 1).val ∧ (i 1).val < win1_4.index t (1 : Fin 2) * 1024 + 1024; omega

end Cert.KernelIdeal.Region1

end
-- ==== Proof.Region1.lean ====
import proofs.«155055_j89489938580120_2_alg».proof.Proof.Region1Inv
import proofs.«155055_j89489938580120_2_alg».proof.Proof.Region1Blocks
import Idealize.ShloMosaic.Lib.Pipeline.Value

noncomputable section

namespace Cert.KernelIdeal.Region1

open Idealize.ShloMosaic Idealize.ShloMosaic.TcCoe Idealize.ShloMosaic.ValueIdx Idealize.SL.Sem Cert.KernelIdeal Cert.KernelIdeal.Gen Cert.BitLinear

variable (V : (c : Dev nD) → (b : Ref sig .tc) → Buf (Elt Ideal) ((c : Thread nD τ).loc b))

/-! ## From the blocks to the output array

The output block (i, j) is written back once, after the last stretch of its group (k = 15). What is written back is
the block (i, j) of one function of the four arrays the region reads: at (r, s) the sum over the sixteen stretches of
the products of x's row r and the sign array's row s, times the scale at s, plus the bias at s. The 4 x 16 blocks of
2048 x 1024 tile the 8192 x 16384 array (every index lies in the block written back at the last point of its group),
so the array ends holding that function. -/

/-- WHAT A FLUSHING POINT WRITES BACK is its block of the fused result. -/
theorem flushed_eq (c : Dev nD) (t : Fin cfg1.N) (hf : (cfg1.win 4).flush t = true) :
    (dat1 (F := Ideal) V c).flushed 4 t
      = ((cfg1.win 4).blk t).view.read (Elt Ideal) (fused (V c main_v3) (V c main_v0_1) (V c main_v1) (V c main_v2)) := by
  have h15 : t.val % 16 = 15 := (flush1_4 t).mp hf
  have hN : t.val < 1024 := lt_of_lt_of_eq t.isLt (show cfg1.N = 1024 from N_1)
  show (cfg1.win 4).cut (grid1.coords t) ((dat1 V c).after 4 t) = _
  rw [after1_4]
  refine funext fun (j : S2048x1024.Idx) => ?_
  obtain ⟨p, q, rfl⟩ : ∃ (p : Fin 2048) (q : Fin 1024), j = ix2 p q := ⟨j 0, j 1, eq_ix2 j⟩
  show outsAt1 V c t.val t.isLt (ix2 p q)
    = fused (V c main_v3) (V c main_v0_1) (V c main_v1) (V c main_v2) (((cfg1.win 4).blk t).view.emb (ix2 p q))
  have hp := p.isLt
  have hq := q.isLt
  have hr' : 2048 * (t.val / 256) + p.val < 8192 := by omega
  have hs' : 1024 * (t.val / 16 % 16) + q.val < 16384 := by omega
  rw [o_emb t p q ⟨_, hr'⟩ ⟨_, hs'⟩ rfl rfl, inv V c t.val t.isLt p q ⟨_, hr'⟩ ⟨_, hs'⟩ rfl rfl]
  unfold target
  rw [if_pos h15, partialSum_full]
  rfl

/-- THE OUTPUT ARRAY after the region: the fused result of the four arrays the region reads. -/
theorem out_array (c : Dev nD) :
    (dat1 (F := Ideal) V c).arrAt 4 cfg1.N = fused (V c main_v3) (V c main_v0_1) (V c main_v1) (V c main_v2) :=
  (dat1 (F := Ideal) V c).arrAt_eq_of_cover 4 (fused (V c main_v3) (V c main_v0_1) (V c main_v1) (V c main_v2))
    (fun t hf => flushed_eq V c t hf) cover_out

end Cert.KernelIdeal.Region1
end
-- ==== Proof.Glue.lean ====
/-
  The three host lines between the two kernels only re-lay data: the scale column [16384, 1] is transposed into a
  row [1, 16384], the bias [16384] is reshaped into a row [1, 16384], and x is converted to a narrower float format
  (the identity on the extended reals).  Feeding the second kernel's function with x, the signs of w, and those two
  rows gives the kernel's result as a function of the three arguments.
-/
import proofs.«155055_j89489938580120_2_alg».proof.Proof.Spec
import Idealize.ShloMosaic.Lib.ValueLayout

noncomputable section

namespace Cert.BitLinear

open Idealize.ShloMosaic Idealize.ShloMosaic.ValueIdx

/-- The second kernel's function at x, sign w, the transposed scale column and the reshaped bias is the kernel's
    result: the row of scales at (0, q) is the column at (q, 0), the row of biases at (0, q) is the bias at q. -/
theorem fused_rows (X : SX.Idx → EReal) (W : SW.Idx → EReal) (B : SB.Idx → EReal)
    (ht : SCol.Transposes [1, 0] SRow) (hc : SB.ShapeCasts SRow) :
    fused X (signArr W) (transpose SRow [1, 0] (scaleCol W) ht) (shapeCast SRow B hc) = kernelOut X W B := by
  funext i
  obtain ⟨p, q, rfl⟩ : ∃ (p : Fin 8192) (q : Fin 16384), i = ix2 p q := ⟨i 0, i 1, eq_ix2 i⟩
  show (∑ kb : Fin 16, ∑ kk : Fin 256, X (ix2 p (kidx kb kk)) * signArr W (ix2 q (kidx kb kk)))
        * transpose SRow [1, 0] (scaleCol W) ht (ix2 (0 : Fin 1) q) + shapeCast SRow B hc (ix2 (0 : Fin 1) q)
      = (∑ kb : Fin 16, ∑ kk : Fin 256, X (ix2 p (kidx kb kk)) * Ideal.sign (W (ix2 q (kidx kb kk)))) * rowScale W q
        + B (ix1 q)
  rw [transpose_ix2_apply (scaleCol W) ht (0 : Fin 1) q, shapeCast_a_1a_apply B hc (0 : Fin 1) q]
  rfl

end Cert.BitLinear

end
-- ==== Proof.KernelValue.lean ====
/-
  The idealized kernel's result as a function of its three arguments.

  The first kernel leaves the column of row scales and the array of signs of w (module Region0); the host lines
  between transpose the column into a row, reshape the bias into a row and pass x through a format change that is
  the identity on the extended reals; the second kernel leaves, at (p, q), the sum over the 16 stretches of the
  products of x[p, ·] with the signs of w[q, ·], times the scale row at q, plus the bias row at q (module Region1).
  Composed: the result array is `kernelOut x w b`.
-/
import proofs.«155055_j89489938580120_2_alg».proof.Proof.KernelRun
import proofs.«155055_j89489938580120_2_alg».proof.Proof.Region0
import proofs.«155055_j89489938580120_2_alg».proof.Proof.Region1
import proofs.«155055_j89489938580120_2_alg».proof.Proof.Glue
import Idealize.ShloMosaic.Lib.StableHlo.Run

set_option maxRecDepth 16384

noncomputable section

namespace Cert.KernelIdeal.Whole

open Idealize.ShloMosaic Idealize.ShloMosaic.TcCoe Idealize.SL.Sem
open Cert.KernelIdeal Cert.KernelIdeal.Gen Cert.BitLinear

variable (m : (ℓ : Loc nD τ sig) → Buf (Elt Ideal) ℓ) (ρ : Dev nD → PrngReg)

/-- What the second kernel reads as x: the argument x itself (the format change is the identity). -/
theorem mid_x (c : Dev nD) : V2 m ρ c main_v3 = m ((c : Thread nD τ).loc main_arg0) := by
  show StableHlo.after hostOps1 (W1 m ρ c) (Proc.devRef .tc main_v3) = _
  after_results
  exact W1_of_ne m ρ c main_arg0 (by decide)

/-- What it reads as the signs: the first kernel's second result, untouched by the host lines. -/
theorem mid_sign (c : Dev nD) : V2 m ρ c main_v0_1 = signArr (m ((c : Thread nD τ).loc main_arg1)) := by
  show StableHlo.after hostOps1 (W1 m ρ c) (Proc.devRef .tc main_v0_1) = _
  after_results
  exact (W1_arr m ρ c 2).trans (Region0.sign_array (V0 m ρ) c)

/-- The scale row: the first kernel's column of scales, transposed. -/
theorem mid_scale (c : Dev nD) : V2 m ρ c main_v1
    = transpose S1x16384 [1, 0] (scaleCol (m ((c : Thread nD τ).loc main_arg1))) Facts₀.transposes_S16384x1_S1x16384_1_0 := by
  show StableHlo.after hostOps1 (W1 m ρ c) (Proc.devRef .tc main_v1) = _
  after_results
  exact congrArg (fun z => transpose S1x16384 [1, 0] z Facts₀.transposes_S16384x1_S1x16384_1_0)
    ((W1_arr m ρ c 1).trans (Region0.scale_array (V0 m ρ) c))

/-- The bias row: the bias, reshaped. -/
theorem mid_bias (c : Dev nD) : V2 m ρ c main_v2
    = shapeCast S1x16384 (m ((c : Thread nD τ).loc main_arg2)) Facts₀.shapeCasts_S16384_S1x16384 := by
  show StableHlo.after hostOps1 (W1 m ρ c) (Proc.devRef .tc main_v2) = _
  after_results
  exact congrArg (fun z => shapeCast S1x16384 z Facts₀.shapeCasts_S16384_S1x16384) (W1_of_ne m ρ c main_arg2 (by decide))

/-- The result array after the run, as a function of the arguments. -/
theorem result_eq (c : Dev nD) : W3 m ρ c (Proc.devRef .tc main_v4)
    = kernelOut (m ((c : Thread nD τ).loc main_arg0)) (m ((c : Thread nD τ).loc main_arg1)) (m ((c : Thread nD τ).loc main_arg2)) := by
  refine (W3_arr m ρ c 4).trans ?_
  rw [Region1.out_array (V2 m ρ) c, mid_x, mid_sign, mid_scale, mid_bias]
  exact fused_rows _ _ _ _ _

/-- The idealized kernel's run with its result named: every weakly fair execution terminates, the result array ends
    at `kernelOut` of the arguments, and the arguments end as launched. -/
theorem run : θ_run defs (onTc (τ := τ) (main (F := Ideal))) ⟨m, fun _ => 0, ρ⟩ (fun r => ∀ c : Dev nD,
      r.2.mem ((c.tc : Thread nD τ).loc main_v4)
        = kernelOut (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (result_eq m ρ c), (h c).2⟩) (run_main m ρ)

end Cert.KernelIdeal.Whole

end
-- ==== Proof.RefValue.lean ====
/-
  The reference computes, one host operation at a time, the one-bit linear layer: the absolute values of the weight,
  their sum along each row, the division by 4096, the signs times that scale, the transpose, the contraction with x and
  the addition of the bias.  Read at one index (p, q) of the result this is

      ∑ k, x[p, k] · (sign w[q, k] · s[q]) + b[q]          with   s[q] = (∑ c, |w[q, c]|) / 4096,

  which is the function refOut of the specification.
-/
import proofs.«155055_j89489938580120_2_alg».proof.Proof.Gen.ReferenceIdeal.Read
import proofs.«155055_j89489938580120_2_alg».proof.Proof.Spec

noncomputable section

namespace Cert.ReferenceIdeal.RefValue

open Cert.ReferenceIdeal Cert.ReferenceIdeal.Read Cert.BitLinear Idealize.ShloMosaic Idealize.ShloMosaic.ValueIdx

/-- The reference's result, as a function of the three arguments, is the specification's refOut. -/
theorem ref_eq (X : SX.Idx → EReal) (W : SW.Idx → EReal) (B : SB.Idx → EReal) :
    val_main_v12 (F := Ideal) X W B = refOut X W B := by
  funext i
  obtain ⟨p, q, rfl⟩ : ∃ (p : Fin 8192) (q : Fin 16384), i = ix2 p q := ⟨i 0, i 1, eq_ix2 i⟩
  -- the index functions of the layout operations, composed, at the coordinates (p, q) and a summation index k
  have eL : ∀ k : Fin 4096, lidx_main_v9 (ix2 p q) k = ix2 p k := fun k =>
    funext fun a => Fin.ext (by match a with | ⟨0, _⟩ => rfl | ⟨1, _⟩ => rfl)
  have eR : ∀ k : Fin 4096, idx_main_v8 (ridx_main_v9 (ix2 p q) k) = ix2 q k := fun k =>
    funext fun a => Fin.ext (by match a with | ⟨0, _⟩ => rfl | ⟨1, _⟩ => rfl)
  have eS : ∀ (k c : Fin 4096), idx_main_v1 (idx_main_v2 (idx_main_v6 (ix2 q k))) c = ix2 q c := fun k c =>
    funext fun a => Fin.ext (by match a with | ⟨0, _⟩ => rfl | ⟨1, _⟩ => rfl)
  have eB : idx_main_v10 (idx_main_v11 (ix2 p q)) = ix1 q :=
    funext fun a => Fin.ext (by match a with | ⟨0, _⟩ => rfl)
  rw [val_main_v12_apply, val_main_v9_apply, val_main_v11_apply, val_main_v10_apply]
  simp only [val_main_v8_apply, val_main_v7_apply, val_main_v5_apply, val_main_v6_apply, val_main_v4_apply,
    val_main_v2_apply, val_main_v3_apply, val_main_v1_apply, val_main_v0_apply, val_main_cst_apply,
    val_main_cst_0_apply, eL, eR, eS, eB, Ideal.addf_def, Ideal.mulf_def, Ideal.hostDivf_def, Ideal.hostAbsf_def,
    Ideal.hostUnary_sign_def, Ideal.ofBits_def, Ideal.ofBits_zero_f32, zero_add]
  rfl

end Cert.ReferenceIdeal.RefValue

end
-- ==== Proof.Finite.lean ====
/-
  The precondition says that every entry of x, of w and of b has an absolute value below +∞.  Over the extended reals
  an entry with |v| < +∞ is neither +∞ nor -∞, so it is a real number.  This module reads the printed predicate back
  to that statement for x and for w: the predicate is a conjunction of three "all entries" reductions, each of which,
  being 1, is 1 at every entry.
-/
import proofs.«155055_j89489938580120_2_alg».proof.Pre_finite_inputs
import proofs.«155055_j89489938580120_2_alg».proof.Proof.Spec
import Idealize.ShloMosaic.Lib.ReduceAll

noncomputable section

namespace Cert.BitLinear.Finite

open Idealize.ShloMosaic Idealize.ShloMosaic.ValueIdx

/-- The shape with no axes has exactly one index. -/
instance : Subsingleton Cert.Pre_finite_inputs.S_.Idx := ⟨fun a b => funext fun d => d.elim0⟩

/-- An extended real whose absolute value compares below +∞ is a real number. -/
theorem real_of_abs_lt (x : Ideal .f32)
    (h : FloatOps.cmpf .olt (FloatOps.hostAbsf x) (FloatOps.ofBits (F := Ideal) .f32 0x7F800000#32) = 1#1) :
    ∃ r : ℝ, (x : EReal) = (r : EReal) := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  induction x using EReal.rec with
  | bot => simp [Ideal.cmp] at h
  | top => simp [Ideal.cmp] at h
  | coe r => exact ⟨r, rfl⟩

/-- Under the precondition every entry of x and every entry of w is a real number. -/
theorem reals_of_pre [Cert.Pre_finite_inputs.Facts] (X : SX.Idx → EReal) (W : SW.Idx → EReal) (B : SB.Idx → EReal)
    (h : Cert.Pre_finite_inputs.fn (F := Ideal) X W B = (fun _ => 1#1)) :
    (∀ i, ∃ r : ℝ, X i = (r : EReal)) ∧ (∀ i, ∃ r : ℝ, W i = (r : EReal)) := by
  have h0 := congrFun h ValueIdx.ix0
  dsimp only [Cert.Pre_finite_inputs.fn] at h0
  obtain ⟨h1, _⟩ := IntOp.andi_eq_one.1 h0
  obtain ⟨hx, hw⟩ := IntOp.andi_eq_one.1 h1
  exact ⟨fun i => real_of_abs_lt (X i) (Host.reduce_andi_all _ _ _ _ _ hx i),
    fun i => real_of_abs_lt (W i) (Host.reduce_andi_all _ _ _ _ _ hw i)⟩

end Cert.BitLinear.Finite

end
-- ==== Proof.Algebra.lean ====
/-
  The one algebraic law of this certificate.  With every entry of x and w a real number, taking the row scale
  out of the sum and cutting the sum over 4096 positions into 16 stretches of 256 changes nothing:

      (∑ kb < 16, ∑ kk < 256, x[p, 256·kb + kk] · σ[q, 256·kb + kk]) · s[q]  =  ∑ k < 4096, x[p, k] · (σ[q, k] · s[q]).

  The regrouping of the sum holds in any commutative monoid, so on the extended reals as they are; moving the factor
  s[q] across the sum is distributivity, which the extended reals have only away from the infinities — here every
  x[p, k], every sign σ[q, k] and the scale s[q] (a finite sum of absolute values of reals, divided by 4096) is real.
-/
import proofs.«155055_j89489938580120_2_alg».proof.Proof.Spec

noncomputable section

namespace Cert.BitLinear

open Idealize.ShloMosaic Idealize.ShloMosaic.ValueIdx

/-- Positions of the contracted axis are pairs (stretch, position inside the stretch). -/
def stretchEquiv : Fin 16 × Fin 256 ≃ Fin 4096 where
  toFun p := kidx p.1 p.2
  invFun k := (⟨k.val / 256, by omega⟩, ⟨k.val % 256, by omega⟩)
  left_inv p := by
    obtain ⟨⟨a, ha⟩, ⟨b, hb⟩⟩ := p
    simp only [kidx, Prod.mk.injEq, Fin.mk.injEq]
    constructor <;> omega
  right_inv k := by
    apply Fin.ext
    simp only [kidx]
    omega

/-- A sum over the 4096 positions, stretch by stretch. -/
theorem sum_stretches {M : Type} [AddCommMonoid M] (f : Fin 4096 → M) :
    ∑ kb : Fin 16, ∑ kk : Fin 256, f (kidx kb kk) = ∑ k : Fin 4096, f k := by
  rw [← Fintype.sum_prod_type' (f := fun kb kk => f (kidx kb kk))]
  exact Fintype.sum_equiv stretchEquiv _ _ fun _ => rfl

/-- The embedding of the reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The float 4096 is the real 4096. -/
theorem ofBits_4096 : Ideal.ofBits .f32 0x45800000#32 = ((4096 : ℝ) : EReal) := by
  simp [Ideal.ofBits, Ideal.ieee, -EReal.coe_mul]; norm_num

/-- The absolute value of a real, as the float operation computes it, is a real. -/
theorem absf_coe (r : ℝ) : FloatOps.absf (F := Ideal) (φ := .f32) (r : EReal) = ((|r| : ℝ) : EReal) := by
  show max (r : EReal) (-(r : EReal)) = _
  rw [← EReal.coe_neg, ← EReal.coe_strictMono.monotone.map_max]
  exact congrArg _ (abs_eq_max_neg (a := r)).symm

/-- The scale of a row of reals is a real. -/
theorem rowScale_real (W : SW.Idx → EReal) (hW : ∀ i, ∃ r : ℝ, W i = (r : EReal)) (q : Fin 16384) :
    ∃ s : ℝ, rowScale W q = (s : EReal) := by
  choose w hw using hW
  refine ⟨(∑ c : Fin 4096, |w (ix2 q c)|) * (1 / 4096), ?_⟩
  unfold rowScale
  rw [ofBits_4096, Ideal.div_coe (by norm_num : (4096 : ℝ) ≠ 0), EReal.coe_mul, coe_sum]
  refine congrArg (fun z : EReal => z * (((1 / 4096 : ℝ)) : EReal)) ?_
  exact Finset.sum_congr rfl fun c _ => by rw [hw, absf_coe]

/-- The sign of a real is a real. -/
theorem sign_real (r : ℝ) : ∃ g : ℝ, Ideal.sign (r : EReal) = (g : EReal) := ⟨_, Ideal.sign_coe r⟩

/-- THE LAW: on finite x and w the kernel's arrangement and the reference's are one function. -/
theorem kernelOut_eq_refOut (X : SX.Idx → EReal) (W : SW.Idx → EReal) (B : SB.Idx → EReal)
    (hX : ∀ i, ∃ r : ℝ, X i = (r : EReal)) (hW : ∀ i, ∃ r : ℝ, W i = (r : EReal)) :
    kernelOut X W B = refOut X W B := by
  funext i
  unfold kernelOut refOut
  refine congrArg (fun z : EReal => z + B (ix1 (i 1))) ?_
  rw [sum_stretches (fun k => X (ix2 (i 0) k) * Ideal.sign (W (ix2 (i 1) k)))]
  obtain ⟨s, hs⟩ := rowScale_real W hW (i 1)
  choose x hx using hX
  choose w hw using hW
  have hg : ∀ k : Fin 4096, ∃ g : ℝ, Ideal.sign (W (ix2 (i 1) k)) = (g : EReal) := fun k => by
    rw [hw]; exact sign_real _
  choose g hg using hg
  rw [hs]
  have e1 : ∀ k : Fin 4096, X (ix2 (i 0) k) * Ideal.sign (W (ix2 (i 1) k)) = ((x (ix2 (i 0) k) * g k : ℝ) : EReal) :=
    fun k => by rw [hx, hg, EReal.coe_mul]
  have e2 : ∀ k : Fin 4096, X (ix2 (i 0) k) * (Ideal.sign (W (ix2 (i 1) k)) * (s : EReal))
      = ((x (ix2 (i 0) k) * (g k * s) : ℝ) : EReal) :=
    fun k => by rw [hx, hg, ← EReal.coe_mul, ← EReal.coe_mul]
  rw [Finset.sum_congr rfl fun k _ => e1 k, Finset.sum_congr rfl fun k _ => e2 k, ← coe_sum, ← coe_sum, ← EReal.coe_mul]
  refine congrArg (fun r : ℝ => (r : EReal)) ?_
  rw [Finset.sum_mul]
  exact Finset.sum_congr rfl fun k _ => by ring

end Cert.BitLinear

end
-- ==== Proof.lean ====
/-
  A linear layer with one-bit weights: for x : [8192, 4096], w : [16384, 4096], b : [16384] the result at (p, q) is

      ∑ k, x[p, k] · (sign w[q, k] · s[q]) + b[q],      s[q] = (∑ c, |w[q, c]|) / 4096   (the mean of |w[q, ·]|).

  The reference computes exactly that, with one product over the whole contracted axis.  The kernel is two launches:
  the first leaves the column of scales s and the array of signs of w; the second, over a grid of 4 × 16 output tiles
  and 16 stretches of 256 positions of the contracted axis, accumulates into the resident output tile the products of
  x with the SIGNS alone, and at the last stretch multiplies the tile by the row of scales and adds the row of biases:

      (∑ kb < 16, ∑ kk < 256, x[p, 256·kb + kk] · sign w[q, 256·kb + kk]) · s[q] + b[q].

  On the extended reals the two differ by the grouping of a sum (free: addition is a commutative monoid there) and
  by moving the factor s[q] across the sum (distributivity: true away from the infinities).  The precondition makes
  every entry of x and w a real number, hence every sign, every |w|, every scale: the two results are one function
  (module Algebra).  The kernel's value is read off its run (KernelRun, Region0, Region1, KernelValue), the
  reference's off its generated run (RefValue), the finiteness off the precondition (Finite).

  The idealized kernel differs from the printed one by a single rewrite: the word "1.0 with the sign bit of v" is
  read as "−1 if v < 0, else 1"; its statement is the rule's own.
-/
import proofs.«155055_j89489938580120_2_alg».proof.Defs
import proofs.«155055_j89489938580120_2_alg».proof.Proof.Gen.Kernel
import proofs.«155055_j89489938580120_2_alg».proof.Proof.Gen.Kernel.Frame
import proofs.«155055_j89489938580120_2_alg».proof.Proof.Gen.KernelIdeal
import proofs.«155055_j89489938580120_2_alg».proof.Proof.Gen.KernelIdeal.Frame
import proofs.«155055_j89489938580120_2_alg».proof.Proof.Gen.ReferenceIdeal
import proofs.«155055_j89489938580120_2_alg».proof.Proof.Gen.Pre_finite_inputs
import proofs.«155055_j89489938580120_2_alg».proof.Proof.Gen.ReferenceIdeal.Run
import proofs.«155055_j89489938580120_2_alg».proof.Proof.Gen.ReferenceIdeal.Read
import proofs.«155055_j89489938580120_2_alg».proof.Proof.KernelValue
import proofs.«155055_j89489938580120_2_alg».proof.Proof.RefValue
import proofs.«155055_j89489938580120_2_alg».proof.Proof.Finite
import proofs.«155055_j89489938580120_2_alg».proof.Proof.Algebra
import Idealize.ShloMosaic.Adequacy
import Idealize.ShloMosaic.Init

noncomputable section

namespace Cert.Proof

open Idealize.ShloMosaic Idealize.ShloMosaic.TcCoe Idealize.SL.Sem

attribute [local instance] Cert.Kernel.Gen.facts Cert.KernelIdeal.Gen.facts Cert.ReferenceIdeal.Gen.facts Cert.Pre_finite_inputs.Gen.facts

/-- The printed kernel runs, and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The one rewrite of the idealization: the sign word. -/
theorem preserves : Cert.preserves_Kernel_KernelIdeal :=
  IdealRules.sign_bit.statement Cert.KernelIdeal.S256x4096 .f32

/-- From memories agreeing on finite arguments both idealized programs end at one array: the kernel at its
    arrangement of the sum, the reference at its own, equal by the law for finite x and w. -/
theorem algebraic : Cert.algebraic_KernelIdeal_ReferenceIdeal := by
  intro m ρ m' ρ' hpre hagree
  refine ⟨fun c => Cert.BitLinear.kernelOut (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2)),
    Cert.KernelIdeal.Whole.run m ρ, ?_⟩
  refine (θ_run Cert.ReferenceIdeal.defs _ _).mono (fun _ h c => ⟨?_, (h c).2⟩)
    (Cert.ReferenceIdeal.Value.run (F := Ideal) m' ρ')
  obtain ⟨hX, hW⟩ := Cert.BitLinear.Finite.reals_of_pre _ _ _ (hpre c)
  rw [(h c).1, Cert.ReferenceIdeal.Read.val_main_v12_eq, Cert.ReferenceIdeal.RefValue.ref_eq,
    (hagree c).1, (hagree c).2.1, (hagree c).2.2]
  exact (Cert.BitLinear.kernelOut_eq_refOut _ _ _ hX hW).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
